-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S1x16384 : Shape := ⟨2, ![1, 16384]⟩
abbrev S8192x16384 : Shape := ⟨2, ![8192, 16384]⟩
abbrev S1024x1024 : Shape := ⟨2, ![1024, 1024]⟩
abbrev S1x1024 : Shape := ⟨2, ![1, 1024]⟩

abbrev nBuf : Space → Nat
  | .hbm => 29
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x4096, .f32⟩
  | .hbm, ⟨13, _⟩ => ⟨S16384x4096, .i1⟩
  | .hbm, ⟨14, _⟩ => ⟨S_, .f32⟩
  | .hbm, ⟨15, _⟩ => ⟨S16384x4096, .f32⟩
  | .hbm, ⟨16, _⟩ => ⟨S16384x4096, .i1⟩
  | .hbm, ⟨17, _⟩ => ⟨S_, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .bf16⟩
  | .hbm, ⟨26, _⟩ => ⟨S8192x4096, .bf16⟩
  | .hbm, ⟨27, _⟩ => ⟨S1x16384, .f32⟩
  | .hbm, ⟨28, _⟩ => ⟨S8192x16384, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_cst_4 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_cst_5 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  bitsLt_bf16_f32 : FTy.bits .bf16 < FTy.bits .f32
  shapeCasts_S16384_S1x16384 : S16384.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .bf16 = 32 ∨ (Rect.block (s := S16384x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x16384.size a
  hwx0_3 : ∀ i : grid0.Coords, EltTy.bits .f32 = 32 ∨ (Rect.block (s := S8192x16384) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v13) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S4096x16384 : Shape := ⟨2, ![4096, 16384]⟩
abbrev S8192x16384 : Shape := ⟨2, ![8192, 16384]⟩
abbrev S1x16384 : Shape := ⟨2, ![1, 16384]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x4096, .f32⟩
  | .hbm, ⟨13, _⟩ => ⟨S16384x4096, .i1⟩
  | .hbm, ⟨14, _⟩ => ⟨S_, .f32⟩
  | .hbm, ⟨15, _⟩ => ⟨S16384x4096, .f32⟩
  | .hbm, ⟨16, _⟩ => ⟨S16384x4096, .i1⟩
  | .hbm, ⟨17, _⟩ => ⟨S_, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S4096x16384, .f32⟩
  | .hbm, ⟨29, _⟩ => ⟨S8192x16384, .f32⟩
  | .hbm, ⟨30, _⟩ => ⟨S1x16384, .f32⟩
  | .hbm, ⟨31, _⟩ => ⟨S8192x16384, .f32⟩
  | .hbm, ⟨32, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_cst_4 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_cst_5 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  transposes_S16384x4096_S4096x16384_1_0 : S16384x4096.Transposes [1, 0] S4096x16384
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.Pieces.lean ====
/-
  What one grid point's body leaves behind, read back as values.

  The body keeps a running block `acc` in a scratch buffer. At the first step of a contraction (k = 0) it first
  overwrites the scratch with zeros; at every step it replaces the scratch by `acc + x_blk · w_blkᵀ`; at the
  last step (k = 3) it also writes `acc + bias` (the row of biases repeated down the rows) to the output block.
  Each lemma below says which value one of these stores leaves, as the body's own arithmetic term applied to the
  blocks it loaded: the scratch after a first step is the step applied to the zero block; after any later step
  it is the step applied to what the previous point left; the output block at a last step is the bias added to
  the scratch that this very step has just produced.
-/
import proofs.«121348_j16793322127767_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem origin2 : (![0, 0] : Fin 2 → Nat) = fun _ => 0 := funext fun a => by fin_cases a <;> rfl

/-- The first step (k = 0): whatever the scratch held, it ends holding the step applied to the zero block
    (the body overwrites the scratch with zeros and reads those zeros back before it accumulates). -/
theorem scratch_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin2, View.readCov_unit_zero (S := S1024x1024) _ origin2]
  simp only [View.readAt_eq_ld, h3.read_unread, h4.read_unread, View.ld_unit_zero (S := S1024x1024) origin2]

/-- A later, non-final step (k = 1, 2): the scratch holding `acc` ends holding the step applied to `acc`. -/
theorem scratch_mid (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .bf16) (x2 : Vec F S1x1024 .f32) (acc : Vec F S1024x1024 .f32) :
    sout0_B_0 c i a3 h3 a4 h4 a5 h5 a6 h6 a7 h7 hc0 hc1 x0 x1 x2 acc = k0_pay2 acc x0 x1 := by
  unfold sout0_B_0
  rw [View.read_writes_eq_canon _ _ _ (scover0_B_0 c i a3 h3 a4 h4 a5 h5 a6 h6 a7 h7 hc0 hc1 x0 x1 x2 acc)]
  unfold kernelRun0_B
  dsimp only
  rw [View.canon_unit_zero origin2]
  simp only [View.readAt_eq_ld, h3.read_unread, h4.read_unread, h7.read_unread, View.ld_unit_zero (S := S1024x1024) origin2]

/-- The last step (k = 3), the scratch: as at any later step. -/
theorem scratch_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (acc : Vec F S1024x1024 .f32) :
    sout0_C_0 c i a3 h3 a4 h4 a5 h5 a6 h6 a7 h7 hc0 hc1 x0 x1 x2 acc = k0_pay2 acc x0 x1 := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero origin2]
  simp only [View.readAt_eq_ld, h3.read_unread, h4.read_unread, h7.read_unread, View.ld_unit_zero (S := S1024x1024) origin2]

/-- The last step (k = 3), the output block: the bias row added to the scratch this step has just produced
    (the body reads the scratch back after its own store into it). -/
theorem out_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (acc : Vec F S1024x1024 .f32) :
    out0_C_3 c i a3 h3 a4 h4 a5 h5 a6 h6 a7 h7 hc0 hc1 x0 x1 x2 acc = k0_pay3 (k0_pay2 acc x0 x1) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero origin2, View.readCov_unit_zero (S := S1024x1024) _ origin2]
  simp only [View.readAt_eq_ld, h3.read_unread, h4.read_unread, h5.read_unread, h7.read_unread,
    View.ld_unit_zero (S := S1024x1024) origin2, View.ld_unit_zero (S := S1x1024) origin2]

end Cert.KernelIdeal.Pieces

end
-- ==== Proof.Payload.lean ====
/-
  The body's three arithmetic terms, read at one entry, over the extended reals.

  * the zero block is `0` everywhere;
  * one accumulation step, applied to a running block `acc`, a block `x` of the left operand and a block `w` of the
    (already transposed-by-contraction) right operand, is at entry (p, q)
        acc (p, q) + ∑ k < 1024, x (p, k) · w (q, k)
    — the matrix unit contracts the second axis of BOTH blocks, accumulating from zero, with no rounding left;
  * the final step adds to entry (p, q) the q-th bias of the block's one row of biases.
-/
import proofs.«121348_j16793322127767_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Payload

open Cert.KernelIdeal Cert.KernelIdeal.Gen

/-- The block contraction's dimension numbers: both operands contract their axis 1, keep their axis 0. -/
abbrev dK : DotDims S1024x1024 S1024x1024 S1024x1024 := dot_S1024x1024_S1024x1024_S1024x1024_1_1_0_0_n_n

theorem lhs_row (j : S1024x1024.Idx) (q : dK.contr.Idx) : (dK.lhsIdx j q 0).val = (j 0).val := by
  unfold DotDims.lhsIdx
  rw [dif_neg (show ¬(0 : Fin S1024x1024.rank) ∈ dK.lhsBatch by decide), dif_pos (show (0 : Fin S1024x1024.rank) ∈ dK.lhsNonContracting by decide)]
  rfl
theorem lhs_contr (j : S1024x1024.Idx) (q : dK.contr.Idx) : (dK.lhsIdx j q 1).val = (q ⟨0, by decide⟩).val :=
  dK.lhsIdx_val_of_single rfl j q
theorem rhs_row (j : S1024x1024.Idx) (q : dK.contr.Idx) : (dK.rhsIdx j q 0).val = (j 1).val := by
  unfold DotDims.rhsIdx
  rw [dif_neg (show ¬(0 : Fin S1024x1024.rank) ∈ dK.rhsBatch by decide), dif_pos (show (0 : Fin S1024x1024.rank) ∈ dK.rhsNonContracting by decide)]
  rfl
theorem rhs_contr (j : S1024x1024.Idx) (q : dK.contr.Idx) : (dK.rhsIdx j q 1).val = (q ⟨0, by decide⟩).val :=
  dK.rhsIdx_val_of_single rfl j q

/-- The zero block. -/
theorem zero_apply (j : S1024x1024.Idx) : k0_pay1 (F := Ideal) j = 0 := by
  unfold k0_pay1
  rw [shapeCast_self]
  exact Ideal.ofBits_zero_f32

/-- One accumulation step at entry (p, q): the running entry plus the 1024-term contraction of row p of `x`
    with row q of `w`. -/
theorem step_apply (acc : FVec Ideal S1024x1024 .f32) (x w : FVec Ideal S1024x1024 .bf16) (p q : Fin 1024) :
    k0_pay2 (F := Ideal) acc x w (ix2 p q) = acc (ix2 p q) + ∑ k : Fin 1024, x (ix2 p k) * w (ix2 q k) := by
  unfold k0_pay2
  simp only [shapeCast_self]
  show acc (ix2 p q) + FloatOps.matmul dK none x w (constant S1024x1024 .f32 0x00000000#32) (ix2 p q) = _
  rw [Ideal.matmul_constant_zero_apply, ← Equiv.sum_comp (contrEquiv1 dK 1024 rfl rfl).symm]
  refine congrArg (acc (ix2 p q) + ·) (Finset.sum_congr rfl fun k _ => ?_)
  have hk := contrEquiv1_symm_val dK 1024 rfl rfl k
  have el : dK.lhsIdx (ix2 p q) ((contrEquiv1 dK 1024 rfl rfl).symm k) = ix2 p k := funext fun a => Fin.ext (by
    match a with
    | ⟨0, _⟩ => exact lhs_row _ _
    | ⟨1, _⟩ => exact (lhs_contr _ _).trans hk)
  have er : dK.rhsIdx (ix2 p q) ((contrEquiv1 dK 1024 rfl rfl).symm k) = ix2 q k := funext fun a => Fin.ext (by
    match a with
    | ⟨0, _⟩ => exact rhs_row _ _
    | ⟨1, _⟩ => exact (rhs_contr _ _).trans hk)
  rw [el, er]

/-- The final step at entry (p, q): the running entry plus the q-th bias. -/
theorem bias_apply (acc : FVec Ideal S1024x1024 .f32) (b : FVec Ideal S1x1024 .f32) (p q : Fin 1024) :
    k0_pay3 (F := Ideal) acc b (ix2 p q) = acc (ix2 p q) + b (ix2 (0 : Fin 1) q) := by
  unfold k0_pay3
  simp only [shapeCast_self]
  show acc (ix2 p q) + broadcastTo S1024x1024 b broadcasts_S1x1024_S1024x1024 (ix2 p q) = _
  rw [broadcastTo_1b_ab_apply]

end Cert.KernelIdeal.Payload

end
-- ==== Proof.Host.lean ====
/-
  What the region finds in its three input arrays, and what a grid point's windows read of them.

  Before the region the host ternarises the weights (compare each weight with ±0.05·max(mean|w|, 1e-6), select
  1, −1 or 0), re-formats the ternary weights and the activations (a change of float format, the identity on
  the extended reals), and views the bias vector as a one-row matrix. So on entry: the activations' array is the
  argument itself, the weights' array is the ternary weights `tern w` — the very operations the reference applies
  to its own weights, kept as ONE unopened term —, and the bias array at (0, n) is the n-th bias.

  The grid is 8 × 16 × 4 (row block, column block, contraction block); point t sits at row block t / 64, column
  block (t / 4) % 16, contraction block t % 4, and each window's block index is read off these.
-/
import proofs.«121348_j16793322127767_2_alg».proof.Proof.Gen.KernelIdeal.Frame
import proofs.«121348_j16793322127767_2_alg».proof.Proof.Gen.ReferenceIdeal.Read
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Host

open Cert.KernelIdeal Cert.KernelIdeal.Gen

variable (m : (ℓ : Loc nD τ sig) → Buf (Elt Ideal) ℓ)

/-- The ternary weights: the host operations both programs apply to the weight matrix. -/
abbrev tern (w : FVec Ideal S16384x4096 .f32) : FVec Ideal S16384x4096 .f32 :=
  Cert.ReferenceIdeal.Read.val_main_v11 (F := Ideal) w

/-- On entry the activations' array is the argument. -/
theorem entry_x (c : Dev nD) : (V m c main_v13 : S8192x4096.Idx → EReal) = m ((c : Thread nD τ).loc main_arg0) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- On entry the weights' array is the ternary weights. -/
theorem entry_w (c : Dev nD) : (V m c main_v12 : S16384x4096.Idx → EReal) = tern (m ((c : Thread nD τ).loc main_arg1)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- On entry the bias array is the bias vector viewed as one row. -/
theorem entry_b (c : Dev nD) : (V m c main_v14 : S1x16384.Idx → EReal)
    = shapeCast S1x16384 (m ((c : Thread nD τ).loc main_arg2)) shapeCasts_S16384_S1x16384 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.KernelIdeal.Host

end
-- ==== Proof.Blocks.lean ====
/-
  A grid point's three input blocks, read entry by entry from the arguments.

  Point t of the 8 × 16 × 4 grid has row block I = t / 64, column block J = (t / 4) % 16 and contraction block
  S = t % 4. Its activations block is rows 1024·I … of columns 1024·S … of the activations; its weights block is
  rows 1024·J … of columns 1024·S … of the ternary weights; its bias block is biases 1024·J … . The output block
  it belongs to is rows 1024·I …, columns 1024·J … of the result.
-/
import proofs.«121348_j16793322127767_2_alg».proof.Proof.Host

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Host

variable (m : (ℓ : Loc nD τ sig) → Buf (Elt Ideal) ℓ)

/-- Where each window's block sits at point t: decided once over the 512 points. -/
theorem idx_facts : ∀ t : Fin cfg0.N,
    win0_0.index t (0 : Fin 2) = t.val / 64 ∧ win0_0.index t (1 : Fin 2) = t.val % 4
    ∧ win0_1.index t (0 : Fin 2) = t.val / 4 % 16 ∧ win0_1.index t (1 : Fin 2) = t.val % 4
    ∧ win0_2.index t (0 : Fin 2) = 0 ∧ win0_2.index t (1 : Fin 2) = t.val / 4 % 16
    ∧ win0_3.index t (0 : Fin 2) = t.val / 64 ∧ win0_3.index t (1 : Fin 2) = t.val / 4 % 16 :=
  (by decide +kernel : ∀ t : Fin grid0.N, _)

/-- The activations block, the weights block and the bias block of point n, as plain matrices. -/
def xb (c : Dev nD) (n : ℕ) (hn : n < cfg0.N) : FVec Ideal S1024x1024 .bf16 := iblk m c 0 ⟨n, hn⟩
def wb (c : Dev nD) (n : ℕ) (hn : n < cfg0.N) : FVec Ideal S1024x1024 .bf16 := iblk m c 1 ⟨n, hn⟩
def bb (c : Dev nD) (n : ℕ) (hn : n < cfg0.N) : FVec Ideal S1x1024 .f32 := iblk m c 2 ⟨n, hn⟩

/-- Entry (p, k) of the activations block is entry (1024·I + p, 1024·S + k) of the activations. -/
theorem xb_apply (c : Dev nD) (n : ℕ) (hn : n < cfg0.N) (p k : Fin 1024) (r : Fin 8192) (kk : Fin 4096)
    (hr : r.val = n / 64 * 1024 + p.val) (hk : kk.val = n % 4 * 1024 + k.val) :
    xb m c n hn (ix2 p k) = m ((c : Thread nD τ).loc main_arg0) (ix2 r kk) := by
  obtain ⟨e0, e1, -⟩ := idx_facts ⟨n, hn⟩
  have e0' : win0_0.index ⟨n, hn⟩ (0 : Fin 2) = n / 64 := e0
  have e1' : win0_0.index ⟨n, hn⟩ (1 : Fin 2) = n % 4 := e1
  unfold xb iblk
  rw [View.read_apply]
  show (V m c main_v13 : S8192x4096.Idx → EReal) _ = _
  rw [entry_x]
  refine congrArg (m ((c : Thread nD τ).loc main_arg0)) (funext fun a => Fin.ext ?_)
  match a with
  | ⟨0, _⟩ => show win0_0.index ⟨n, hn⟩ (0 : Fin 2) * 1024 + 1 * p.val = r.val; omega
  | ⟨1, _⟩ => show win0_0.index ⟨n, hn⟩ (1 : Fin 2) * 1024 + 1 * k.val = kk.val; omega

/-- Entry (q, k) of the weights block is entry (1024·J + q, 1024·S + k) of the ternary weights. -/
theorem wb_apply (c : Dev nD) (n : ℕ) (hn : n < cfg0.N) (q k : Fin 1024) (j : Fin 16384) (kk : Fin 4096)
    (hj : j.val = n / 4 % 16 * 1024 + q.val) (hk : kk.val = n % 4 * 1024 + k.val) :
    wb m c n hn (ix2 q k) = tern (m ((c : Thread nD τ).loc main_arg1)) (ix2 j kk) := by
  obtain ⟨-, -, e2, e3, -⟩ := idx_facts ⟨n, hn⟩
  have e2' : win0_1.index ⟨n, hn⟩ (0 : Fin 2) = n / 4 % 16 := e2
  have e3' : win0_1.index ⟨n, hn⟩ (1 : Fin 2) = n % 4 := e3
  unfold wb iblk
  rw [View.read_apply]
  show (V m c main_v12 : S16384x4096.Idx → EReal) _ = _
  rw [entry_w]
  refine congrArg (tern (m ((c : Thread nD τ).loc main_arg1))) (funext fun a => Fin.ext ?_)
  match a with
  | ⟨0, _⟩ => show win0_1.index ⟨n, hn⟩ (0 : Fin 2) * 1024 + 1 * q.val = j.val; omega
  | ⟨1, _⟩ => show win0_1.index ⟨n, hn⟩ (1 : Fin 2) * 1024 + 1 * k.val = kk.val; omega

/-- Entry (0, q) of the bias block is bias 1024·J + q. -/
theorem bb_apply (c : Dev nD) (n : ℕ) (hn : n < cfg0.N) (q : Fin 1024) (j : Fin 16384)
    (hj : j.val = n / 4 % 16 * 1024 + q.val) :
    bb m c n hn (ix2 (0 : Fin 1) q) = m ((c : Thread nD τ).loc main_arg2) (ix1 j) := by
  obtain ⟨-, -, -, -, e4, e5, -⟩ := idx_facts ⟨n, hn⟩
  have e4' : win0_2.index ⟨n, hn⟩ (0 : Fin 2) = 0 := e4
  have e5' : win0_2.index ⟨n, hn⟩ (1 : Fin 2) = n / 4 % 16 := e5
  unfold bb iblk
  rw [View.read_apply]
  show (V m c main_v14 : S1x16384.Idx → EReal) _ = _
  rw [entry_b]
  have he : ((cfg0.win 2).blk ⟨n, hn⟩).view.emb (ix2 (0 : Fin 1) q) = ix2 (0 : Fin 1) j := funext fun a => Fin.ext (by
    match a with
    | ⟨0, _⟩ => show win0_2.index ⟨n, hn⟩ (0 : Fin 2) * 1 + 1 * 0 = 0; omega
    | ⟨1, _⟩ => show win0_2.index ⟨n, hn⟩ (1 : Fin 2) * 1024 + 1 * q.val = j.val; omega)
  rw [he, shapeCast_a_1a_apply]

end Cert.KernelIdeal.Blocks

end
-- ==== Proof.LibBlockedSum.lean ====
/-
  A finite sum cut into consecutive blocks.

  A sum over the `a * b` indices `0, 1, …, a * b - 1` is the sum, over the `a` blocks `s = 0, …, a - 1`, of the
  block's own sum over its `b` consecutive indices `s * b, s * b + 1, …, s * b + (b - 1)`. Addition is only asked
  to be commutative and associative (any additive commutative monoid: the extended reals qualify, where
  cancellation and distributivity may fail at the infinities but re-bracketing and re-ordering a sum never do).
  This is the law that joins a contraction computed one block of the contracted axis at a time with the same
  contraction computed in one go.
-/
import Mathlib.Algebra.BigOperators.Fin
import Mathlib.Logic.Equiv.Fin.Basic

open scoped BigOperators

namespace BlockedSum

/-- The `k`-th index of block `s` is an index of the whole range. -/
theorem block_index_lt {a b : ℕ} (s : Fin a) (k : Fin b) : s.val * b + k.val < a * b := by
  have hs : s.val + 1 ≤ a := s.isLt
  have hk : k.val < b := k.isLt
  calc s.val * b + k.val < s.val * b + b := Nat.add_lt_add_left hk _
    _ = (s.val + 1) * b := (Nat.succ_mul _ _).symm
    _ ≤ a * b := Nat.mul_le_mul_right b hs

/-- The `k`-th index of block `s`, as an index of the whole range. -/
def blockIndex {a b : ℕ} (s : Fin a) (k : Fin b) : Fin (a * b) := ⟨s.val * b + k.val, block_index_lt s k⟩

@[simp] theorem blockIndex_val {a b : ℕ} (s : Fin a) (k : Fin b) : (blockIndex s k).val = s.val * b + k.val := rfl

/-- A sum over `a * b` indices is the sum of its `a` consecutive blocks of `b` terms each. -/
theorem sum_eq_sum_blocks {M : Type*} [AddCommMonoid M] (a b : ℕ) (f : Fin (a * b) → M) :
    ∑ i : Fin (a * b), f i = ∑ s : Fin a, ∑ k : Fin b, f (blockIndex s k) := by
  rw [← Equiv.sum_comp finProdFinEquiv f, Fintype.sum_prod_type]
  refine Finset.sum_congr rfl fun s _ => Finset.sum_congr rfl fun k _ => congrArg f (Fin.ext ?_)
  show k.val + b * s.val = s.val * b + k.val
  rw [Nat.add_comm, Nat.mul_comm]

/-- The same with the blocks counted by a natural number below `a` (a `Finset.range` sum, the form a fold over
    consecutive steps unrolls to): `g` gives block `s`'s term at its `k`-th place, and agrees with `f` there. -/
theorem sum_range_blocks {M : Type*} [AddCommMonoid M] (a b : ℕ) (f : Fin (a * b) → M) (g : ℕ → Fin b → M)
    (hg : ∀ (s : Fin a) (k : Fin b), g s.val k = f (blockIndex s k)) :
    ∑ s ∈ Finset.range a, ∑ k : Fin b, g s k = ∑ i : Fin (a * b), f i := by
  rw [sum_eq_sum_blocks, Finset.sum_range]
  exact Finset.sum_congr rfl fun s _ => Finset.sum_congr rfl fun k _ => hg s k

end BlockedSum
-- ==== Proof.Spec.lean ====
/-
  The specification, and the one law about the weights.

  Both programs compute a dense layer with ternary weights: entry (r, n) of the result is the contraction, over
  the 4096 input features, of row r of the activations with row n of the ternary weight matrix, plus the n-th
  bias. The ternary matrix enters only as a matrix `T`: nothing here depends on how it was obtained.

  The kernel contracts the 4096 features in four consecutive blocks of 1024, adding each block's partial sum to
  a running total that starts at zero; since addition of extended reals is associative and commutative, that is the
  whole 4096-term sum.

  The reference reaches its weights by a detour, `w + (T − w)` entry by entry. On the extended reals that is `T`
  whenever `w` is a real number (whatever `T` is, infinite or not); for an infinite `w` it would not be.
-/
import Idealize.ShloMosaic.PureOps.Ideal
import Idealize.ShloMosaic.Lib.ValueIdx
import proofs.«121348_j16793322127767_2_alg».proof.Proof.LibBlockedSum

noncomputable section

open Idealize.ShloMosaic Idealize.ShloMosaic.ValueIdx

namespace Cert.Spec

/-- The dense layer: `(x · Tᵀ + bias)` entry by entry. -/
def dense (X : (⟨2, ![8192, 4096]⟩ : Shape).Idx → EReal) (T : (⟨2, ![16384, 4096]⟩ : Shape).Idx → EReal)
    (B : (⟨1, ![16384]⟩ : Shape).Idx → EReal) : (⟨2, ![8192, 16384]⟩ : Shape).Idx → EReal :=
  fun i => (∑ k : Fin 4096, X (ix2 (i 0) k) * T (ix2 (i 1) k)) + B (ix1 (i 1))

theorem dense_apply (X : (⟨2, ![8192, 4096]⟩ : Shape).Idx → EReal) (T : (⟨2, ![16384, 4096]⟩ : Shape).Idx → EReal)
    (B : (⟨1, ![16384]⟩ : Shape).Idx → EReal) (r : Fin 8192) (n : Fin 16384) :
    dense X T B (ix2 r n) = (∑ k : Fin 4096, X (ix2 r k) * T (ix2 n k)) + B (ix1 n) := rfl

/-- Adding back what was subtracted: for a real `a` and any extended real `t`, `a + (t − a) = t`. -/
theorem add_sub_cancel_real (a : ℝ) (t : EReal) : (a : EReal) + (t - (a : EReal)) = t := by
  induction t using EReal.rec with
  | bot => simp
  | top => simp
  | coe b => rw [← EReal.coe_sub, ← EReal.coe_add]; exact congrArg _ (by ring)

/-- A running total started at zero and fed the four consecutive 1024-term blocks of a 4096-term sum is that sum. -/
theorem sum_four_blocks (F : Fin 4096 → EReal) (P0 P1 P2 P3 : EReal)
    (h0 : P0 = ∑ k : Fin 1024, F ⟨0 * 1024 + k.val, by have := k.isLt; omega⟩)
    (h1 : P1 = ∑ k : Fin 1024, F ⟨1 * 1024 + k.val, by have := k.isLt; omega⟩)
    (h2 : P2 = ∑ k : Fin 1024, F ⟨2 * 1024 + k.val, by have := k.isLt; omega⟩)
    (h3 : P3 = ∑ k : Fin 1024, F ⟨3 * 1024 + k.val, by have := k.isLt; omega⟩) :
    0 + P0 + P1 + P2 + P3 = ∑ kk : Fin 4096, F kk := by
  subst h0 h1 h2 h3
  rw [zero_add]
  have key := BlockedSum.sum_eq_sum_blocks 4 1024 F
  rw [Fin.sum_univ_four] at key
  exact key.symm

end Cert.Spec

end
-- ==== Proof.Fold.lean ====
/-
  From one grid point to the whole result array.

  Fix an output block (row block I, column block J). Its four grid points t − 3, …, t (t ≡ 3 mod 4) run one after
  the other; the scratch is reset at the first and each point adds its 1024-term partial contraction, so after the
  fourth the scratch entry (p, q) is 0 + P₀ + P₁ + P₂ + P₃, where Pₛ contracts features 1024·s … of row 1024·I + p
  of the activations against the same features of row 1024·J + q of the ternary weights. The fourth point writes
  that plus bias 1024·J + q to the output block, and only the fourth point's block is written back. The four
  blocks of features are the 4096 features, so the entry is the dense layer's; every entry of the result lies in
  exactly such a block, so the result array is the dense layer.
-/
import proofs.«121348_j16793322127767_2_alg».proof.Proof.Gen.KernelIdeal.Value
import proofs.«121348_j16793322127767_2_alg».proof.Proof.Pieces
import proofs.«121348_j16793322127767_2_alg».proof.Proof.Payload
import proofs.«121348_j16793322127767_2_alg».proof.Proof.Blocks
import proofs.«121348_j16793322127767_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Host Cert.KernelIdeal.Blocks

variable (m : (ℓ : Loc nD τ sig) → Buf (Elt Ideal) ℓ) (ρ : Dev nD → PrngReg)

/-- At the first point of a run the scratch becomes the step applied to the zero block. -/
theorem step_first (c : Dev nD) (n : ℕ) (hn : n < cfg0.N) (acc : Vec Ideal S1024x1024 .f32) (h0 : n % 4 = 0) :
    Value.scAt0_0 m c n hn acc = k0_pay2 (F := Ideal) (k0_pay1 (F := Ideal)) (xb m c n hn) (wb m c n hn) := by
  unfold Value.scAt0_0
  rw [dif_pos h0, dif_neg (by omega)]
  exact Pieces.scratch_first ..

/-- At every later point it becomes the step applied to what it held. -/
theorem step_later (c : Dev nD) (n : ℕ) (hn : n < cfg0.N) (acc : Vec Ideal S1024x1024 .f32) (h0 : ¬n % 4 = 0) :
    Value.scAt0_0 m c n hn acc = k0_pay2 (F := Ideal) acc (xb m c n hn) (wb m c n hn) := by
  unfold Value.scAt0_0
  rw [dif_neg h0]
  split
  · exact Pieces.scratch_last ..
  · exact Pieces.scratch_mid ..

/-- Point n's partial contraction at entry (p, q) of its blocks. -/
def part (c : Dev nD) (n : ℕ) (hn : n < cfg0.N) (p q : Fin 1024) : EReal :=
  ∑ k : Fin 1024, xb m c n hn (ix2 p k) * wb m c n hn (ix2 q k)

/-- The scratch after the four points of a run starting at b: zero plus the four partial contractions. -/
theorem scratch_after_run (c : Dev nD) (b : ℕ) (h : b + 3 < cfg0.N) (hb : b % 4 = 0) (p q : Fin 1024) :
    Pipeline.accAt (fun n h => Value.scAt0_0 m c n h (VS0_0.read (Elt Ideal) VS0_0.junk)) (Value.scAt0_0 m c) b 3 h (ix2 p q)
      = 0 + part m c b (by omega) p q + part m c (b + 1) (by omega) p q + part m c (b + 2) (by omega) p q + part m c (b + 3) h p q := by
  show Value.scAt0_0 m c (b + 3) h (Value.scAt0_0 m c (b + 2) _ (Value.scAt0_0 m c (b + 1) _ (Value.scAt0_0 m c b _ _))) (ix2 p q) = _
  rw [step_later m c (b + 3) _ _ (by omega), Payload.step_apply, step_later m c (b + 2) _ _ (by omega), Payload.step_apply,
    step_later m c (b + 1) _ _ (by omega), Payload.step_apply, step_first m c b _ _ hb, Payload.step_apply, Payload.zero_apply]
  rfl

/-- The three arguments, as plain arrays of extended reals (the weights already ternarised). -/
abbrev X (c : Dev nD) : S8192x4096.Idx → EReal := m ((c : Thread nD τ).loc main_arg0)
abbrev T (c : Dev nD) : S16384x4096.Idx → EReal := tern (m ((c : Thread nD τ).loc main_arg1))
abbrev B (c : Dev nD) : S16384.Idx → EReal := m ((c : Thread nD τ).loc main_arg2)

/-- The k-th product of the dense layer's entry (r, j). -/
def term (c : Dev nD) (r : Fin 8192) (j : Fin 16384) (kk : Fin 4096) : EReal := X m c (ix2 r kk) * T m c (ix2 j kk)

/-- One partial contraction, over the arguments: block s of the 4096 products. -/
theorem part_eq (c : Dev nD) (n : ℕ) (hn : n < cfg0.N) (p q : Fin 1024) (r : Fin 8192) (j : Fin 16384) (s : ℕ) (hs : s < 4)
    (hr : r.val = n / 64 * 1024 + p.val) (hj : j.val = n / 4 % 16 * 1024 + q.val) (hsn : n % 4 = s) :
    part m c n hn p q = ∑ k : Fin 1024, term m c r j ⟨s * 1024 + k.val, by have := k.isLt; omega⟩ := by
  unfold part term
  refine Finset.sum_congr rfl fun k _ => ?_
  rw [xb_apply m c n hn p k r ⟨s * 1024 + k.val, by have := k.isLt; omega⟩ hr (by show s * 1024 + k.val = n % 4 * 1024 + k.val; rw [hsn]),
    wb_apply m c n hn q k j ⟨s * 1024 + k.val, by have := k.isLt; omega⟩ hj (by show s * 1024 + k.val = n % 4 * 1024 + k.val; rw [hsn])]

/-- What the result array holds: the dense layer of the activations, the ternary weights and the biases. -/
abbrev result (c : Dev nD) : Buf (Elt Ideal) ((c : Thread nD τ).loc main_v15) :=
  Cert.Spec.dense (X m c) (T m c) (B m c)

theorem accAt_steps_congr {α : Type} {N : ℕ} (a : (n : ℕ) → n < N → α) (g : (n : ℕ) → n < N → α → α) (b j j' : ℕ) (e : j = j')
    (h : b + j < N) : Pipeline.accAt a g b j h = Pipeline.accAt a g b j' (e ▸ h) := by
  subst e; rfl

/-- The output block of a run's last point t, at entry (p, q): the dense layer at (1024·I + p, 1024·J + q). -/
theorem out_entry (c : Dev nD) (t : Fin cfg0.N) (h3 : t.val % 4 = 3) (p q : Fin 1024) (r : Fin 8192) (j : Fin 16384)
    (hr : r.val = t.val / 64 * 1024 + p.val) (hj : j.val = t.val / 4 % 16 * 1024 + q.val) :
    k0_pay3 (F := Ideal) ((outsAt0 m c t.val t.isLt).2) (bb m c t.val t.isLt) (ix2 p q) = result m c (ix2 r j) := by
  have hN' : cfg0.N = 512 := N_0
  have hN : t.val < 512 := lt_of_lt_of_eq t.isLt hN'
  have hb : 4 * (t.val / 4) + 3 < cfg0.N := by omega
  rw [Payload.bias_apply, Value.soutsAt0_0_eq m c t, accAt_steps_congr _ _ _ _ 3 h3, scratch_after_run m c (4 * (t.val / 4)) hb (by omega) p q,
    bb_apply m c t.val t.isLt q j hj]
  show _ = Cert.Spec.dense (X m c) (T m c) (B m c) (ix2 r j)
  rw [Cert.Spec.dense_apply]
  refine congrArg (· + B m c (ix1 j)) ?_
  exact Cert.Spec.sum_four_blocks (term m c r j) _ _ _ _
    (part_eq m c (4 * (t.val / 4)) _ p q r j 0 (by omega) (by omega) (by omega) (by omega))
    (part_eq m c (4 * (t.val / 4) + 1) _ p q r j 1 (by omega) (by omega) (by omega) (by omega))
    (part_eq m c (4 * (t.val / 4) + 2) _ p q r j 2 (by omega) (by omega) (by omega) (by omega))
    (part_eq m c (4 * (t.val / 4) + 3) _ p q r j 3 (by omega) (by omega) (by omega) (by omega))

/-- What a run's last point t would write back: the bias row added to the scratch as that point leaves it. -/
theorem flushed_last (c : Dev nD) (t : Fin cfg0.N) (h0 : ¬t.val % 4 = 0) (h3 : t.val % 4 = 3) :
    (dats m 0 c).flushed 3 t
      = (cfg0.win 3).cut (grid0.coords t) (k0_pay3 (F := Ideal) ((outsAt0 m c t.val t.isLt).2) (bb m c t.val t.isLt)) := by
  rw [Value.flushed3, outsAt0_C m c t h0 h3]
  dsimp only
  refine congrArg ((cfg0.win 3).cut (grid0.coords t)) ?_
  refine (Pieces.out_last ..).trans ?_
  refine congrArg (fun a => k0_pay3 (F := Ideal) a (bb m c t.val t.isLt)) ?_
  exact (Pieces.scratch_last ..).symm

/-- What a run's last point writes back is its block of the dense layer. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have h0 : ¬t.val % 4 = 0 := by omega
  have hN : t.val < 512 := lt_of_lt_of_eq t.isLt N_0
  obtain ⟨-, -, -, -, -, -, e6, e7⟩ := idx_facts t
  rw [flushed_last m c t h0 h3]
  refine funext fun (y : S1024x1024.Idx) => ?_
  obtain ⟨p, q, rfl⟩ : ∃ (p q : Fin 1024), y = ix2 p q := ⟨y 0, y 1, eq_ix2 y⟩
  have hp := p.isLt
  have hq := q.isLt
  rw [View.read_apply]
  have he : ((cfg0.win 3).blk t).view.emb (ix2 p q)
      = ix2 (⟨t.val / 64 * 1024 + p.val, by omega⟩ : Fin 8192) (⟨t.val / 4 % 16 * 1024 + q.val, by omega⟩ : Fin 16384) :=
    funext fun a => Fin.ext (by
      match a with
      | ⟨0, _⟩ => show win0_3.index t (0 : Fin 2) * 1024 + 1 * p.val = t.val / 64 * 1024 + p.val; omega
      | ⟨1, _⟩ => show win0_3.index t (1 : Fin 2) * 1024 + 1 * q.val = t.val / 4 % 16 * 1024 + q.val; omega)
  rw [he]
  exact out_entry m c t h3 p q _ _ rfl rfl

/-- Every entry of the result lies in the block of some run's last point. -/
theorem cover (i : S8192x16384.Idx) : ∃ t : Fin cfg0.N, (cfg0.win 3).flush t = true ∧ i ∈ ((cfg0.win 3).blk t).view.set := by
  have h0 : (i 0).val < 8192 := (i 0).isLt
  have h1 : (i 1).val < 16384 := (i 1).isLt
  have hN : cfg0.N = 512 := N_0
  obtain ⟨tn, htn⟩ : ∃ tn : ℕ, tn = ((i 0).val / 1024 * 16 + (i 1).val / 1024) * 4 + 3 := ⟨_, rfl⟩
  have hlt : tn < cfg0.N := by rw [hN]; omega
  obtain ⟨-, -, -, -, -, -, e6, e7⟩ := idx_facts ⟨tn, hlt⟩
  have e6' : win0_3.index ⟨tn, hlt⟩ (0 : Fin 2) = tn / 64 := e6
  have e7' : win0_3.index ⟨tn, hlt⟩ (1 : Fin 2) = tn / 4 % 16 := e7
  refine ⟨⟨tn, hlt⟩, (flush0_3 _).mpr (by show tn % 4 = 3; omega), ?_⟩
  show i ∈ ((View.whole main_v15).slice (win0_3.rect ⟨tn, hlt⟩)).set
  rw [View.set_slice_whole, Rect.mem_set_unit]
  intro a
  match a with
  | ⟨0, _⟩ =>
    show win0_3.index ⟨tn, hlt⟩ (0 : Fin 2) * 1024 ≤ (i 0).val ∧ (i 0).val < win0_3.index ⟨tn, hlt⟩ (0 : Fin 2) * 1024 + 1024
    omega
  | ⟨1, _⟩ =>
    show win0_3.index ⟨tn, hlt⟩ (1 : Fin 2) * 1024 ≤ (i 1).val ∧ (i 1).val < win0_3.index ⟨tn, hlt⟩ (1 : Fin 2) * 1024 + 1024
    omega

/-- So the result array ends holding the dense layer. -/
theorem final (c : Dev nD) : (dats m 0 c).arrAt 3 cfg0.N = result m c :=
  (dats m 0 c).arrAt_eq_of_cover 3 (result m c) (flushed_eq m c) cover

/-- The kernel's run: the result array at the dense layer, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Fold

end
-- ==== Proof.Reference.lean ====
/-
  The reference computes the dense layer.

  Read one operation at a time: the reference ternarises the weights to `T`, forms `w + (T − w)` entry by entry,
  transposes, contracts the 4096 features of row r of the activations against column n of the transposed matrix
  (row n of the untransposed one), and adds the n-th bias, repeated down the rows. With every weight a real number
  the detour returns `T` itself, so entry (r, n) is `∑ₖ x (r, k) · T (n, k) + bias n`.
-/
import proofs.«121348_j16793322127767_2_alg».proof.Proof.Gen.ReferenceIdeal.Read
import proofs.«121348_j16793322127767_2_alg».proof.Proof.Spec

noncomputable section

open Idealize.ShloMosaic Idealize.ShloMosaic.ValueIdx

namespace Cert.ReferenceIdeal.RefValue

open Cert.ReferenceIdeal Cert.ReferenceIdeal.Read

/-- The reference's result, for real weights, is the dense layer over the ternary weights. -/
theorem result_eq (x0 : FVec Ideal S8192x4096 .f32) (x1 : FVec Ideal S16384x4096 .f32) (x2 : FVec Ideal S16384 .f32)
    (hw : ∀ j : S16384x4096.Idx, ∃ a : ℝ, x1 j = (a : EReal)) :
    val_main_v19 (F := Ideal) x0 x1 x2 = Cert.Spec.dense x0 (val_main_v11 (F := Ideal) x1) x2 := by
  funext i
  obtain ⟨r, n, rfl⟩ : ∃ (r : Fin 8192) (n : Fin 16384), i = ix2 r n := ⟨i 0, i 1, eq_ix2 i⟩
  rw [val_main_v19_apply, val_main_v16_apply, val_main_v18_apply, val_main_v17_apply, Cert.Spec.dense_apply]
  have eb : idx_main_v17 (idx_main_v18 (ix2 r n)) = ix1 n := funext fun a => Fin.ext (by match a with | ⟨0, _⟩ => rfl)
  rw [eb]
  refine congrArg (· + x2 (ix1 n)) (Finset.sum_congr rfl fun k _ => ?_)
  have el : lidx_main_v16 (ix2 r n) k = ix2 r k := funext fun a => Fin.ext (by
    match a with
    | ⟨0, _⟩ => rfl
    | ⟨1, _⟩ => rfl)
  have er : idx_main_v15 (ridx_main_v16 (ix2 r n) k) = ix2 n k := funext fun a => Fin.ext (by
    match a with
    | ⟨0, _⟩ => rfl
    | ⟨1, _⟩ => rfl)
  rw [val_main_v15_apply, val_main_v14_apply, val_main_v13_apply, val_main_v12_apply, el, er]
  obtain ⟨a, ha⟩ := hw (ix2 n k)
  simp only [Ideal.addf_def, Ideal.subf_def]
  rw [ha, Cert.Spec.add_sub_cancel_real]

end Cert.ReferenceIdeal.RefValue

end
-- ==== Proof.Finite.lean ====
/-
  Under the precondition every weight is a real number.

  The precondition says, of each input array, that every entry's absolute value is below +∞. On the extended reals
  that rules out both infinities, so the entry is (the image of) a real number. Only the weights' part is needed:
  it is what makes the reference's detour `w + (T − w)` return `T`.
-/
import proofs.«121348_j16793322127767_2_alg».proof.Defs
import proofs.«121348_j16793322127767_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

open Idealize.ShloMosaic Idealize.ShloMosaic.ValueIdx Idealize.SL.Sem

namespace Cert.Finite

instance : Subsingleton Cert.Pre_finite_inputs.S_.Idx := ⟨fun a b => funext fun d => d.elim0⟩

/-- An extended real whose absolute value is below +∞ is a real number. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ a : ℝ, x = (a : EReal) := by
  induction x using EReal.rec with
  | bot =>
    exfalso
    simp [Ideal.cmpf_def, Ideal.absf_def, Ideal.cmp, Ideal.ofBits, Ideal.ieee] at h
  | top =>
    exfalso
    simp [Ideal.cmpf_def, Ideal.absf_def, Ideal.cmp, Ideal.ofBits, Ideal.ieee] at h
  | coe a => exact ⟨a, rfl⟩

/-- The precondition's second conjunct, read at one weight. -/
theorem weight_real [Cert.Pre_finite_inputs.Facts] (x : FVec Ideal Cert.Pre_finite_inputs.S8192x4096 .f32)
    (w : FVec Ideal Cert.Pre_finite_inputs.S16384x4096 .f32) (b : FVec Ideal Cert.Pre_finite_inputs.S16384 .f32)
    (h : Cert.Pre_finite_inputs.fn (F := Ideal) x w b = fun _ => 1#1) (j : Cert.Pre_finite_inputs.S16384x4096.Idx) :
    ∃ a : ℝ, w j = (a : EReal) := by
  have h0 := congrFun h ix0
  dsimp only [Cert.Pre_finite_inputs.fn] at h0
  obtain ⟨h01, -⟩ := IntOp.andi_eq_one.1 h0
  obtain ⟨-, h1⟩ := IntOp.andi_eq_one.1 h01
  have hj := Host.reduce_andi_all _ _ _ _ _ h1 j
  have e : broadcastInDim Cert.Pre_finite_inputs.S16384x4096 ![] Cert.Pre_finite_inputs.Facts.bcast_S_S16384x4096
      (constant (F := Ideal) Cert.Pre_finite_inputs.S_ .f32 0x7F800000#32) j = Ideal.ofBits .f32 0x7F800000#32 :=
    broadcastInDim_apply _ _ _ j ix0 (fun a => a.elim0)
  refine real_of_abs_lt_top (w j) ?_
  rw [← e]
  exact hj

/-- So, under the kernel's precondition, every entry of its weight argument is a real number. -/
theorem weights_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (j : Cert.KernelIdeal.S16384x4096.Idx) :
    ∃ a : ℝ, m ((c.tc : Thread Cert.KernelIdeal.nD Cert.KernelIdeal.τ).loc Cert.KernelIdeal.main_arg1) j = (a : EReal) :=
  weight_real _ _ _ (hpre c) j

end Cert.Finite

end
-- ==== Proof.lean ====
/-
  A dense layer with ternary weights, computed two ways, gives one result over the extended reals.

  Both programs first ternarise the weight matrix w (16384 × 4096) by the same host operations: the scale is
  max(mean |w|, 1e-6), the threshold 0.05 · scale, and an entry becomes 1 above the threshold, −1 below its negative,
  0 otherwise; call the result T. The kernel then tiles x · Tᵀ + bias (x is 8192 × 4096) into 1024 × 1024 output
  blocks and, for each, walks the 4096 features in four blocks of 1024, keeping a running block in scratch memory
  that starts at zero and adding the bias at the last step. The reference forms w + (T − w), contracts all 4096
  features at once and adds the bias.

  Over the extended reals a change of float format is the identity and every sum is exact, so the kernel's entry
  (r, n) is ((((0 + P₀) + P₁) + P₂) + P₃) + bias n with Pₛ the s-th 1024-term block of ∑ₖ x (r, k) · T (n, k); adding
  is associative and commutative there, so that is the whole sum plus the bias. The reference's detour w + (T − w)
  is T wherever w is a real number, which is what the precondition (every input finite) provides; this is the one
  place it is used. The idealized kernel is the kernel's own text read over the extended reals (nothing was
  rewritten), and each program leaves its arguments as it found them.
-/
import proofs.«121348_j16793322127767_2_alg».proof.Defs
import proofs.«121348_j16793322127767_2_alg».proof.Proof.Gen.Kernel
import proofs.«121348_j16793322127767_2_alg».proof.Proof.Gen.Kernel.Skeleton
import proofs.«121348_j16793322127767_2_alg».proof.Proof.Gen.Kernel.Launch
import proofs.«121348_j16793322127767_2_alg».proof.Proof.Gen.Kernel.Points
import proofs.«121348_j16793322127767_2_alg».proof.Proof.Gen.Kernel.Frame
import proofs.«121348_j16793322127767_2_alg».proof.Proof.Gen.KernelIdeal
import proofs.«121348_j16793322127767_2_alg».proof.Proof.Gen.KernelIdeal.Skeleton
import proofs.«121348_j16793322127767_2_alg».proof.Proof.Gen.KernelIdeal.Launch
import proofs.«121348_j16793322127767_2_alg».proof.Proof.Gen.KernelIdeal.Points
import proofs.«121348_j16793322127767_2_alg».proof.Proof.Gen.KernelIdeal.Frame
import proofs.«121348_j16793322127767_2_alg».proof.Proof.Gen.ReferenceIdeal
import proofs.«121348_j16793322127767_2_alg».proof.Proof.Gen.Pre_finite_inputs
import proofs.«121348_j16793322127767_2_alg».proof.Proof.Gen.KernelIdeal.Value
import proofs.«121348_j16793322127767_2_alg».proof.Proof.Gen.ReferenceIdeal.Run
import proofs.«121348_j16793322127767_2_alg».proof.Proof.Gen.ReferenceIdeal.Read
import proofs.«121348_j16793322127767_2_alg».proof.Proof.Fold
import proofs.«121348_j16793322127767_2_alg».proof.Proof.Reference
import proofs.«121348_j16793322127767_2_alg».proof.Proof.Finite
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the three arguments, with every input finite, both programs end with the dense
    layer `x · Tᵀ + bias` over the ternary weights T: the kernel by summing four blocks of features into a running
    block, the reference by one contraction after its detour through `w + (T − w)`. -/
theorem algebraic : Cert.algebraic_KernelIdeal_ReferenceIdeal := by
  intro m ρ m' ρ' hpre hagree
  refine ⟨fun c => Cert.KernelIdeal.Fold.result m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq,
    Cert.ReferenceIdeal.RefValue.result_eq _ _ _ (fun j => by rw [(hagree c).2.1]; exact Cert.Finite.weights_real m hpre c j),
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
